-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x16x16 : Shape := ⟨4, ![4, 32, 16, 16]⟩
abbrev S4x32x256x256 : Shape := ⟨4, ![4, 32, 256, 256]⟩
abbrev S_ : Shape := ⟨0, ![]⟩

class Facts : Prop where
  bcast_S_S4x32x16x16 : S_.BroadcastsInDim S4x32x16x16 (![] : Fin 0 → Fin S4x32x16x16.rank)
  reducesTo_S4x32x16x16_S_d0_1_2_3 : S4x32x16x16.ReducesTo [0, 1, 2, 3] S_
  h_S_ : 0 < S_.numel
  bcast_S_S4x32x256x256 : S_.BroadcastsInDim S4x32x256x256 (![] : Fin 0 → Fin S4x32x256x256.rank)
  reducesTo_S4x32x256x256_S_d0_1_2_3 : S4x32x256x256.ReducesTo [0, 1, 2, 3] S_

variable [Facts]

def fn {F : FTy → Type} [FloatOps F] (main_arg0 : FVec F S4x32x16x16 .f32) (main_arg1 : FVec F S4x32x256x256 .f32) : IVec S_ 1 :=
  let main_v0 : FVec F S4x32x16x16 .f32 := Host.absf main_arg0
  let main_cst : FVec F S_ .f32 := constant S_ .f32 0x7F800000#32
  let main_v1 : FVec F S4x32x16x16 .f32 := broadcastInDim S4x32x16x16 ![] bcast_S_S4x32x16x16 main_cst
  let main_v2 : IVec S4x32x16x16 1 := cmpf .olt main_v0 main_v1
  let main_c : IVec S_ 1 := constantI S_ 1 1#1
  let main_v3 : IVec S_ 1 := (fun x v => Host.reduce IntOp.andi x v reducesTo_S4x32x16x16_S_d0_1_2_3 h_S_) main_v2 main_c
  let main_v4 : FVec F S4x32x256x256 .f32 := Host.absf main_arg1
  let main_cst_0 : FVec F S_ .f32 := constant S_ .f32 0x7F800000#32
  let main_v5 : FVec F S4x32x256x256 .f32 := broadcastInDim S4x32x256x256 ![] bcast_S_S4x32x256x256 main_cst_0
  let main_v6 : IVec S4x32x256x256 1 := cmpf .olt main_v4 main_v5
  let main_c_1 : IVec S_ 1 := constantI S_ 1 1#1
  let main_v7 : IVec S_ 1 := (fun x v => Host.reduce IntOp.andi x v reducesTo_S4x32x256x256_S_d0_1_2_3 h_S_) main_v6 main_c_1
  let main_v8 : IVec S_ 1 := andi main_v3 main_v7
  main_v8
-- ==== Kernel.lean ====
abbrev S4x32x16x16 : Shape := ⟨4, ![4, 32, 16, 16]⟩
abbrev S4x32x256x256 : Shape := ⟨4, ![4, 32, 256, 256]⟩
abbrev S4x16x16x32 : Shape := ⟨4, ![4, 16, 16, 32]⟩
abbrev S4x8192 : Shape := ⟨2, ![4, 8192]⟩
abbrev S4x8192x8192 : Shape := ⟨3, ![4, 8192, 8192]⟩
abbrev S1x2x256x256 : Shape := ⟨4, ![1, 2, 256, 256]⟩
abbrev S1x512x8192 : Shape := ⟨3, ![1, 512, 8192]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 5
  | .vmem => 4
  | .smem => 0
  | _ => 0

abbrev bufTy : (tb : Table) → Fin (tcTables nBuf tb) → BufTy
  | .hbm, ⟨0, _⟩ => ⟨S4x32x16x16, .f32⟩
  | .hbm, ⟨1, _⟩ => ⟨S4x32x256x256, .f32⟩
  | .hbm, ⟨2, _⟩ => ⟨S4x16x16x32, .f32⟩
  | .hbm, ⟨3, _⟩ => ⟨S4x8192, .f32⟩
  | .hbm, ⟨4, _⟩ => ⟨S4x8192x8192, .f32⟩
  | .local _ .vmem, ⟨0, _⟩ => ⟨S1x2x256x256, .f32⟩
  | .local _ .vmem, ⟨1, _⟩ => ⟨S1x2x256x256, .f32⟩
  | .local _ .vmem, ⟨2, _⟩ => ⟨S1x512x8192, .f32⟩
  | .local _ .vmem, ⟨3, _⟩ => ⟨S1x512x8192, .f32⟩
  | _, _ => ⟨S4x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c2_i32 : BitVec 32 := 2#32
  let arg1 : BitVec 32 := BitVec.ofNat 32 (i 1).val
  let v2 : BitVec 32 := Scalar.muli c2_i32 arg1
  let c256_i32 : BitVec 32 := 256#32
  let v3 : BitVec 32 := Scalar.muli v2 c256_i32
  v3
def k0_mult2 (i : grid0.Coords) : BitVec 32 :=
  let c2_i32_2 : BitVec 32 := 2#32
  let arg1 : BitVec 32 := BitVec.ofNat 32 (i 1).val
  let v5 : BitVec 32 := Scalar.muli c2_i32_2 arg1
  let c1_i32 : BitVec 32 := 1#32
  let v6 : BitVec 32 := Scalar.addi v5 c1_i32
  let c256_i32_3 : BitVec 32 := 256#32
  let v7 : BitVec 32 := Scalar.muli v6 c256_i32_3
  v7
def k0_off1 (i : grid0.Coords) : Fin 3 → Nat :=
  let c0_8 : Index := 0#32
  let c0_9 : Index := 0#32
  let c2_i32 : BitVec 32 := 2#32
  let arg1 : BitVec 32 := BitVec.ofNat 32 (i 1).val
  let v2 : BitVec 32 := Scalar.muli c2_i32 arg1
  let c256_i32 : BitVec 32 := 256#32
  let v3 : BitVec 32 := Scalar.muli v2 c256_i32
  let v4 : BitVec 32 := v3
  let v11 : Index := Scalar.indexCast v4
  ![0, 0, v11.toNat]
def k0_off2 (i : grid0.Coords) : Fin 3 → Nat :=
  let c0_13 : Index := 0#32
  let c256 : Index := 256#32
  let c2_i32_2 : BitVec 32 := 2#32
  let arg1 : BitVec 32 := BitVec.ofNat 32 (i 1).val
  let v5 : BitVec 32 := Scalar.muli c2_i32_2 arg1
  let c1_i32 : BitVec 32 := 1#32
  let v6 : BitVec 32 := Scalar.addi v5 c1_i32
  let c256_i32_3 : BitVec 32 := 256#32
  let v7 : BitVec 32 := Scalar.muli v6 c256_i32_3
  let v8 : BitVec 32 := v7
  let v17 : Index := Scalar.indexCast v8
  ![0, 256, v17.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S4x32x16x16_S4x16x16x32_0_2_3_1 : S4x32x16x16.Transposes [0, 2, 3, 1] S4x16x16x32
  shapeCasts_S4x16x16x32_S4x8192 : S4x16x16x32.ShapeCasts S4x8192
  inb_S1x512x8192_S1x512x8192_0_0_0 : ∀ a, (![0, 0, 0] : Fin 3 → Nat) a + S1x512x8192.size a ≤ S1x512x8192.size a
  h_S1x512x8192 : 0 < S1x512x8192.numel
  inb_S1x2x256x256_S1x1x256x256_0_0_0_0 : ∀ a, (![0, 0, 0, 0] : Fin 4 → Nat) a + S1x1x256x256.size a ≤ S1x2x256x256.size a
  h_S1x1x256x256 : 0 < S1x1x256x256.numel
  shapeCasts_S1x1x256x256_S256x256 : S1x1x256x256.ShapeCasts S256x256
  h_S1x256x256 : 0 < S1x256x256.numel
  shapeCasts_S1x256x256_S256x256 : S1x256x256.ShapeCasts S256x256
  shapeCasts_S256x256_S1x256x256 : S256x256.ShapeCasts S1x256x256
  inb_S1x2x256x256_S1x1x256x256_0_1_0_0 : ∀ a, (![0, 1, 0, 0] : Fin 4 → Nat) a + S1x1x256x256.size a ≤ S1x2x256x256.size a
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x256x256.size a ≤ S1x512x8192.size a
  k0_off2_inb : ∀ i : grid0.Coords, ∀ a, (k0_off2 i) a + S1x256x256.size a ≤ S1x512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x256x256.size a ≤ S4x32x256x256.size a
  hwx0_0 : ∀ i : grid0.Coords, EltTy.bits .f32 = 32 ∨ (Rect.block (s := S4x32x256x256) S1x2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8192.size a ≤ S4x8192x8192.size a
  hwx0_1 : ∀ i : grid0.Coords, EltTy.bits .f32 = 32 ∨ (Rect.block (s := S4x8192x8192) S1x512x8192.size (cc0_transform_1 i) (hinb0_1 i)).WholeWords (EltTy.packing .f32)

variable [Facts₀]

abbrev win0_0 : Pipeline.Window sig grid0 :=
  Pipeline.Window.ofSpec (Memref.whole main_arg1) S1x2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x32x16x16 : Shape := ⟨4, ![4, 32, 16, 16]⟩
abbrev S4x32x256x256 : Shape := ⟨4, ![4, 32, 256, 256]⟩
abbrev S4x16x16x32 : Shape := ⟨4, ![4, 16, 16, 32]⟩
abbrev S4x8192 : Shape := ⟨2, ![4, 8192]⟩
abbrev S32 : Shape := ⟨1, ![32]⟩
abbrev S_ : Shape := ⟨0, ![]⟩
abbrev S4x32x256x32x256 : Shape := ⟨5, ![4, 32, 256, 32, 256]⟩
abbrev S32x4x256x256 : Shape := ⟨4, ![32, 4, 256, 256]⟩
abbrev S32x1 : Shape := ⟨2, ![32, 1]⟩
abbrev S32x2 : Shape := ⟨2, ![32, 2]⟩
abbrev S4x8192x8192 : Shape := ⟨3, ![4, 8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x32x16x16, .f32⟩
  | .hbm, ⟨1, _⟩ => ⟨S4x32x256x256, .f32⟩
  | .hbm, ⟨2, _⟩ => ⟨S4x16x16x32, .f32⟩
  | .hbm, ⟨3, _⟩ => ⟨S4x8192, .f32⟩
  | .hbm, ⟨4, _⟩ => ⟨S32, .i32⟩
  | .hbm, ⟨5, _⟩ => ⟨S_, .f32⟩
  | .hbm, ⟨6, _⟩ => ⟨S4x32x256x32x256, .f32⟩
  | .hbm, ⟨7, _⟩ => ⟨S32x4x256x256, .f32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x1, .i32⟩
  | .hbm, ⟨24, _⟩ => ⟨S32x2, .i32⟩
  | .hbm, ⟨25, _⟩ => ⟨S4x32x256x32x256, .f32⟩
  | .hbm, ⟨26, _⟩ => ⟨S4x8192x8192, .f32⟩
  | _, _ => ⟨S4x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S4x32x16x16_S4x16x16x32_0_2_3_1 : S4x32x16x16.Transposes [0, 2, 3, 1] S4x16x16x32
  shapeCasts_S4x16x16x32_S4x8192 : S4x16x16x32.ShapeCasts S4x8192
  bcast_S_S4x32x256x32x256 : S_.BroadcastsInDim S4x32x256x32x256 (![] : Fin 0 → Fin S4x32x256x32x256.rank)
  transposes_S4x32x256x256_S32x4x256x256_1_0_2_3 : S4x32x256x256.Transposes [1, 0, 2, 3] S32x4x256x256
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S4x32x256x32x256_S4x8192x8192 : S4x32x256x32x256.ShapeCasts S4x8192x8192
  scatter_S4x32x256x32x256_S32x2_S32x4x256x256_123_13_13_1_wf : ScatterDims.WF S4x32x256x32x256 S32x2 S32x4x256x256 [1, 2, 3] [1, 3] [1, 3] 1

variable [Facts₀]

def scatter_S4x32x256x32x256_S32x2_S32x4x256x256_123_13_13_1 : ScatterDims S4x32x256x32x256 S32x2 S32x4x256x256 where
  updateWindowDims := [1, 2, 3]
  insertedWindowDims := [1, 3]
  scatterDimsToOperandDims := [1, 3]
  indexVectorDim := 1
  wf := scatter_S4x32x256x32x256_S32x2_S32x4x256x256_123_13_13_1_wf

class Facts : Prop extends Facts₀ where

variable [Facts]
-- ==== Proof.BlockDiag.lean ====
/-
  The block-diagonal arrangement both programs compute, as ONE function of the covariance array.

  `sigma` holds, for each of 4 batch elements, 32 square blocks of 256 × 256. The flattened covariance of batch `b` is the
  8192 × 8192 matrix with block `ch` on the diagonal at block position `(ch, ch)` and zero elsewhere: entry `(r, c)` lies
  in block row `r / 256` and block column `c / 256`, and it is `sigma[b, r / 256, r % 256, c % 256]` when the two agree and
  zero when they do not. No arithmetic is done on the entries, so the value type and its zero stay abstract.
-/
import Idealize.ShloMosaic.Lib.ValueIdx

namespace Cert.BlockDiag

open Idealize.ShloMosaic Idealize.ShloMosaic.ValueIdx

/-- Entry `(b, r, c)` of the flattened covariance: `sg (b, r / 256, r % 256, c % 256)` on the diagonal blocks
    (`r / 256 = c / 256`), `zero` off them. -/
def blockDiag {α : Type} (zero : α) (sg : (⟨4, ![4, 32, 256, 256]⟩ : Shape).Idx → α) :
    (⟨3, ![4, 8192, 8192]⟩ : Shape).Idx → α := fun i =>
  if (i 1).val / 256 = (i 2).val / 256 then
    sg (ix4 (⟨(i 0).val, (i 0).isLt⟩ : Fin 4)
      (⟨(i 1).val / 256, by have h : (i 1).val < 8192 := (i 1).isLt; omega⟩ : Fin 32)
      (⟨(i 1).val % 256, Nat.mod_lt _ (by decide)⟩ : Fin 256)
      (⟨(i 2).val % 256, Nat.mod_lt _ (by decide)⟩ : Fin 256))
  else zero

end Cert.BlockDiag
-- ==== Proof.LibStoreOverlay.lean ====
/-
  The newest store of a list of stores, made through a unit-stride rectangle, read at one element.

  What a list of stores (newest first) leaves in a buffer is, element by element, the payload of the newest store whose
  rectangle holds the element. For a newest store through the rectangle of offsets `off` and sizes `size`: an element whose
  coordinates are `off a + x a` on every axis reads the payload at `x` (`canon_cons_unit_of_mem`); an element that misses
  the rectangle on some axis — below the offset, or at or past offset plus size — reads what the older stores left
  (`canon_cons_unit_of_not_mem`). With them a list of overlapping stores (a fill, then tiles stored over it) is read by
  arithmetic on the coordinates alone.
-/
import Idealize.ShloMosaic.Lib.Pipeline.Value

namespace Idealize.ShloMosaic.StoreOverlay

variable {Val : EltTy → Type} [∀ e, Nonempty (Val e)] {S : Shape} {e : EltTy}

/-- Inside the newest store's rectangle, at local position `x`, the contents are its payload at `x`. -/
theorem canon_cons_unit_of_mem (off size : Fin S.rank → Nat) (inb)
    (w : (Rect.unit off size inb).shape.Idx → Val e) (L : List (View.Piece Val S e)) (y : S.Idx)
    (x : (Rect.unit off size inb).shape.Idx) (hx : ∀ a, (y a).val = off a + (x a).val) :
    View.canon (⟨Rect.unit off size inb, w⟩ :: L) y = w x := by
  have : y = (Rect.unit off size inb).emb x := funext fun a => Fin.ext (by rw [Rect.emb_apply, hx a]; simp)
  rw [this, View.canon_cons_emb]

/-- Off the newest store's rectangle — missing it on axis `a` — the contents are what the older stores left. -/
theorem canon_cons_unit_of_not_mem (off size : Fin S.rank → Nat) (inb)
    (w : (Rect.unit off size inb).shape.Idx → Val e) (L : List (View.Piece Val S e)) (y : S.Idx)
    (a : Fin S.rank) (ha : (y a).val < off a ∨ off a + size a ≤ (y a).val) :
    View.canon (⟨Rect.unit off size inb, w⟩ :: L) y = View.canon L y :=
  View.canon_cons_of_not_mem _ _ (fun h => by have := (Rect.mem_set_unit (inb := inb)).mp h a; omega)

end Idealize.ShloMosaic.StoreOverlay
-- ==== Proof.KernelValue.lean ====
/-
  The kernel's two results as functions of its arguments.

  The grid has 4 × 16 points `(b, cp)`: a batch element and a PAIR of channels `2·cp`, `2·cp + 1`. At a point the body
  holds the two 256 × 256 blocks `sigma[b, 2·cp]`, `sigma[b, 2·cp + 1]` and fills rows `512·cp … 512·cp + 511` of batch
  `b`'s 8192 × 8192 matrix, all 8192 columns: first zeros everywhere, then the even channel's block over rows 0 … 255 at
  columns `256·(2·cp) …`, then the odd channel's block over rows 256 … 511 at columns `256·(2·cp + 1) …`. So entry `(r, c)`
  of the 512-row block (`rowBlock`) is the pair's block `r / 256` at `(r % 256, c % 256)` when `c / 256 = 2·cp + r / 256`,
  and zero otherwise (`body_leaves`). Read at the array's own coordinates — row `512·cp + r` — that is the block-diagonal
  arrangement `Cert.BlockDiag.blockDiag` of `sigma` (`written_back`); the 64 row blocks tile the array
  (`row_blocks_cover`), so the array ends holding it (`sigma_flat`). The first result is two host operations of `mu`
  made before the launch, which the launch leaves alone (`mu_flat`).
-/
import proofs.«110686_j26499948216838_2_alg».proof.Proof.Gen.KernelIdeal.Value
import proofs.«110686_j26499948216838_2_alg».proof.Proof.BlockDiag
import proofs.«110686_j26499948216838_2_alg».proof.Proof.LibStoreOverlay
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx
open Idealize.ShloMosaic.StoreOverlay

variable {F : FTy → Type} [FloatOps F]

/-! ## The body: what it leaves in its output block -/

theorem zero_offsets : (![0, 0, 0] : Fin 3 → Nat) = fun _ => 0 := funext fun a => by fin_cases a <;> rfl

/-- The even channel's column offset, as the body computes it in 32-bit words, is `2·cp·256` (decided over the 16 pairs); -/
theorem even_offset_word : ∀ q : Fin 16,
    (Scalar.indexCast (Scalar.muli (Scalar.muli 2#32 (BitVec.ofNat 32 q.val)) 256#32)).toNat = 2 * q.val * 256 := by decide
/-- the odd channel's is `(2·cp + 1)·256`. -/
theorem odd_offset_word : ∀ q : Fin 16,
    (Scalar.indexCast (Scalar.muli (Scalar.addi (Scalar.muli 2#32 (BitVec.ofNat 32 q.val)) 1#32) 256#32)).toNat
      = (2 * q.val + 1) * 256 := by decide
theorem even_col_offset (i : grid0.Coords) : k0_off1 i 2 = 2 * (i 1).val * 256 := even_offset_word ⟨(i 1).val, (i 1).isLt⟩
theorem odd_col_offset (i : grid0.Coords) : k0_off2 i 2 = (2 * (i 1).val + 1) * 256 := odd_offset_word ⟨(i 1).val, (i 1).isLt⟩

/-- A loaded [1, 1, 256, 256] piece re-cast to [256, 256] and then to [1, 256, 256], as the body stores it: entry
    `(0, p, q)` is the piece's entry `(0, 0, p, q)`. -/
theorem recast_apply (v : Vec F S1x1x256x256 .f32) (h1) (h2) (x : S1x256x256.Idx) :
    shapeCast S1x256x256 (shapeCast S256x256 v h1) h2 x
      = v (ix4 (0 : Fin 1) (0 : Fin 1) (⟨(x 1).val, (x 1).isLt⟩ : Fin 256) (⟨(x 2).val, (x 2).isLt⟩ : Fin 256)) := by
  have hx0 : (x 0).val < 1 := (x 0).isLt
  rw [shapeCast_apply _ h2 x (ix2 (⟨(x 1).val, (x 1).isLt⟩ : Fin 256) (⟨(x 2).val, (x 2).isLt⟩ : Fin 256)) (by
    rw [Shape.rowMajor_val_two, Shape.rowMajor_val_three]
    show (x 1).val * 256 + (x 2).val = ((x 0).val * 256 + (x 1).val) * 256 + (x 2).val
    omega)]
  rw [shapeCast_apply _ h1 _ (ix4 (0 : Fin 1) (0 : Fin 1) (⟨(x 1).val, (x 1).isLt⟩ : Fin 256) (⟨(x 2).val, (x 2).isLt⟩ : Fin 256)) (by
    rw [Shape.rowMajor_val_four, Shape.rowMajor_val_two]
    show ((0 * 1 + 0) * 256 + (x 1).val) * 256 + (x 2).val = (x 1).val * 256 + (x 2).val
    omega)]

/-- The 512 × 8192 block of channel pair `cp`, from the pair's two 256 × 256 blocks `x0`: entry `(r, c)` is block `r / 256`
    of the pair at `(r % 256, c % 256)` when column block `c / 256` is that channel's, `2·cp + r / 256`; zero otherwise. -/
def rowBlock (cp : Nat) (x0 : Vec F S1x2x256x256 .f32) : Vec F S1x512x8192 .f32 := fun y =>
  if (y 2).val / 256 = 2 * cp + (y 1).val / 256 then
    x0 (ix4 (0 : Fin 1) (⟨(y 1).val / 256, by have h : (y 1).val < 512 := (y 1).isLt; omega⟩ : Fin 2)
      (⟨(y 1).val % 256, Nat.mod_lt _ (by decide)⟩ : Fin 256) (⟨(y 2).val % 256, Nat.mod_lt _ (by decide)⟩ : Fin 256))
  else FloatOps.ofBits .f32 0x00000000#32

/-- What the body's three stores leave in the output block at grid point `i`, given the input block `x0`: `rowBlock` of
    the point's channel pair. Read newest store first: rows 256 … 511 can only meet the odd channel's tile, rows 0 … 255
    only the even channel's, and what neither tile holds is the zero fill. -/
theorem body_leaves (c : Dev nD) (i : grid0.Coords) (arg2 : Memref sig .tc .vmem S1x2x256x256 .f32) (harg2 : arg2.IsWhole)
    (arg3 : Memref sig .tc .vmem S1x512x8192 .f32) (harg3 : arg3.IsWhole) (x0 : Vec F S1x2x256x256 .f32) :
    out0_A_1 c i arg2 harg2 arg3 harg3 x0 = rowBlock (i 1).val x0 := by
  unfold out0_A_1
  rw [View.read_writes_eq_canon _ _ _ (cover0_A_1 c i arg2 harg2 arg3 harg3 x0)]
  unfold kernelRun0_A
  dsimp only
  simp only [View.readAt_eq_ld, harg2.read_unread]
  funext y
  have hy0 : (y 0).val < 1 := (y 0).isLt
  have hy1 : (y 1).val < 512 := (y 1).isLt
  have hy2 : (y 2).val < 8192 := (y 2).isLt
  have hq : (i 1).val < 16 := (i 1).isLt
  have o1 := even_col_offset i
  have o2 := odd_col_offset i
  have o10 : k0_off1 i 0 = 0 := rfl
  have o11 : k0_off1 i 1 = 0 := rfl
  have o20 : k0_off2 i 0 = 0 := rfl
  have o21 : k0_off2 i 1 = 256 := rfl
  unfold rowBlock
  by_cases hr : (y 1).val < 256
  · -- the upper half of the block: the even channel's rows
    rw [canon_cons_unit_of_not_mem _ _ _ _ _ y 1 (by show (y 1).val < k0_off2 i 1 ∨ k0_off2 i 1 + 256 ≤ (y 1).val; omega)]
    by_cases hc : (y 2).val / 256 = 2 * (i 1).val + (y 1).val / 256
    · rw [if_pos hc]
      rw [canon_cons_unit_of_mem (k0_off1 i) ![1, 256, 256] _ _ _ y
        (ix3 (0 : Fin 1) (⟨(y 1).val, hr⟩ : Fin 256) (⟨(y 2).val - k0_off1 i 2, by omega⟩ : Fin 256))
        (fun a => match a with
          | ⟨0, _⟩ => by show (y 0).val = k0_off1 i 0 + 0; omega
          | ⟨1, _⟩ => by show (y 1).val = k0_off1 i 1 + (y 1).val; omega
          | ⟨2, _⟩ => by show (y 2).val = k0_off1 i 2 + ((y 2).val - k0_off1 i 2); omega)]
      unfold k0_pay2
      rw [recast_apply]
      show x0 _ = x0 _
      congr 1
      funext a
      apply Fin.ext
      match a with
      | ⟨0, _⟩ => rfl
      | ⟨1, _⟩ => show 0 + 1 * 0 = (y 1).val / 256; omega
      | ⟨2, _⟩ => show 0 + 1 * (y 1).val = (y 1).val % 256; omega
      | ⟨3, _⟩ => show 0 + 1 * ((y 2).val - k0_off1 i 2) = (y 2).val % 256; omega
    · rw [if_neg hc]
      rw [canon_cons_unit_of_not_mem _ _ _ _ _ y 2 (by show (y 2).val < k0_off1 i 2 ∨ k0_off1 i 2 + 256 ≤ (y 2).val; omega)]
      rw [View.canon_unit_zero zero_offsets]
      rfl
  · -- the lower half: the odd channel's rows
    by_cases hc : (y 2).val / 256 = 2 * (i 1).val + (y 1).val / 256
    · rw [if_pos hc]
      rw [canon_cons_unit_of_mem (k0_off2 i) ![1, 256, 256] _ _ _ y
        (ix3 (0 : Fin 1) (⟨(y 1).val - 256, by omega⟩ : Fin 256) (⟨(y 2).val - k0_off2 i 2, by omega⟩ : Fin 256))
        (fun a => match a with
          | ⟨0, _⟩ => by show (y 0).val = k0_off2 i 0 + 0; omega
          | ⟨1, _⟩ => by show (y 1).val = k0_off2 i 1 + ((y 1).val - 256); omega
          | ⟨2, _⟩ => by show (y 2).val = k0_off2 i 2 + ((y 2).val - k0_off2 i 2); omega)]
      unfold k0_pay3
      rw [recast_apply]
      show x0 _ = x0 _
      congr 1
      funext a
      apply Fin.ext
      match a with
      | ⟨0, _⟩ => rfl
      | ⟨1, _⟩ => show 1 + 1 * 0 = (y 1).val / 256; omega
      | ⟨2, _⟩ => show 0 + 1 * ((y 1).val - 256) = (y 1).val % 256; omega
      | ⟨3, _⟩ => show 0 + 1 * ((y 2).val - k0_off2 i 2) = (y 2).val % 256; omega
    · rw [if_neg hc]
      rw [canon_cons_unit_of_not_mem _ _ _ _ _ y 2 (by show (y 2).val < k0_off2 i 2 ∨ k0_off2 i 2 + 256 ≤ (y 2).val; omega)]
      rw [canon_cons_unit_of_not_mem _ _ _ _ _ y 1 (by show (y 1).val < k0_off1 i 1 ∨ k0_off1 i 1 + 256 ≤ (y 1).val; omega)]
      rw [View.canon_unit_zero zero_offsets]
      rfl

/-! ## From the row blocks to the array -/

variable (m : (ℓ : Loc nD τ sig) → Buf (Elt F) ℓ) (ρ : Dev nD → PrngReg)

/-- The two index maps over the grid (decided over its 64 points): the input block `(b, cp, 0, 0)` and the output row
    block `(b, cp, 0)` move together, `cp` the point's second coordinate. -/
theorem block_indices : ∀ t : Fin cfg0.N,
    win0_0.index t (0 : Fin 4) = win0_1.index t (0 : Fin 3) ∧ win0_0.index t (1 : Fin 4) = win0_1.index t (1 : Fin 3)
    ∧ win0_0.index t (2 : Fin 4) = 0 ∧ win0_0.index t (3 : Fin 4) = 0 ∧ win0_1.index t (2 : Fin 3) = 0
    ∧ win0_1.index t (1 : Fin 3) = (grid0.coords t 1).val ∧ win0_1.index t (0 : Fin 3) < 4 ∧ win0_1.index t (1 : Fin 3) < 16 :=
  (by decide +kernel : ∀ t : Fin grid0.N, _)

/-- Every row block `(b, cp)` is some point's. -/
theorem block_indices_onto : ∀ (q0 : Fin 4) (q1 : Fin 16), ∃ t : Fin cfg0.N, win0_1.index t = ![q0.val, q1.val, 0] :=
  (by decide +kernel : ∀ (q0 : Fin 4) (q1 : Fin 16), ∃ t : Fin grid0.N, win0_1.index t = ![q0.val, q1.val, 0])

/-- What point `t = (b, cp)` writes back is row block `(b, cp)` of the block-diagonal arrangement of `sigma`: array row
    `512·cp + r` lies in block row `2·cp + r / 256`, and the pair's block `r / 256` is channel `2·cp + r / 256` of batch `b`. -/
theorem written_back (c : Dev nD) (t : Fin cfg0.N) :
    (dats m 0 c).flushed 1 t = ((cfg0.win 1).blk t).view.read (Elt F)
      (Cert.BlockDiag.blockDiag (α := Elt F .f32) (FloatOps.ofBits .f32 0x00000000#32) (V m c main_arg1)) := by
  rw [flushed1_A, body_leaves]
  obtain ⟨e0, e1, e2, e3, e4, e5, e6, e7⟩ := block_indices t
  funext y
  show rowBlock (grid0.coords t 1).val (iblk m c 0 t) y
    = Cert.BlockDiag.blockDiag (α := Elt F .f32) (FloatOps.ofBits .f32 0x00000000#32) (V m c main_arg1) (((cfg0.win 1).blk t).view.emb y)
  have hy0 : (y 0).val < 1 := (y 0).isLt
  have hy1 : (y 1).val < 512 := (y 1).isLt
  have hy2 : (y 2).val < 8192 := (y 2).isLt
  have a0 : ((((cfg0.win 1).blk t).view.emb y) 0).val = win0_1.index t 0 * 1 + 1 * (y 0).val := rfl
  have a1 : ((((cfg0.win 1).blk t).view.emb y) 1).val = win0_1.index t 1 * 512 + 1 * (y 1).val := rfl
  have a2 : ((((cfg0.win 1).blk t).view.emb y) 2).val = win0_1.index t 2 * 8192 + 1 * (y 2).val := rfl
  unfold rowBlock Cert.BlockDiag.blockDiag
  by_cases hc : (y 2).val / 256 = 2 * (grid0.coords t 1).val + (y 1).val / 256
  · rw [if_pos hc, if_pos (by rw [a1, a2]; omega)]
    show V m c main_arg1 (((cfg0.win 0).blk t).view.emb _) = V m c main_arg1 _
    congr 1
    funext a
    apply Fin.ext
    match a with
    | ⟨0, _⟩ => show win0_0.index t 0 * 1 + 1 * 0 = ((((cfg0.win 1).blk t).view.emb y) 0).val; rw [a0]; omega
    | ⟨1, _⟩ => show win0_0.index t 1 * 2 + 1 * ((y 1).val / 256) = ((((cfg0.win 1).blk t).view.emb y) 1).val / 256; rw [a1]; omega
    | ⟨2, _⟩ => show win0_0.index t 2 * 256 + 1 * ((y 1).val % 256) = ((((cfg0.win 1).blk t).view.emb y) 1).val % 256; rw [a1]; omega
    | ⟨3, _⟩ => show win0_0.index t 3 * 256 + 1 * ((y 2).val % 256) = ((((cfg0.win 1).blk t).view.emb y) 2).val % 256; rw [a2]; omega
  · rw [if_neg hc, if_neg (by rw [a1, a2]; omega)]

/-- An element of the array is in point `t`'s row block iff each coordinate is in the block's range on its axis. -/
theorem mem_row_block (t : Fin cfg0.N) (i : S4x8192x8192.Idx) :
    i ∈ ((cfg0.win 1).blk t).view.set ↔ ∀ a : Fin 3, win0_1.index t a * S1x512x8192.size a ≤ (i a).val
      ∧ (i a).val < win0_1.index t a * S1x512x8192.size a + S1x512x8192.size a := by
  show i ∈ ((View.whole main_v2).slice (win0_1.rect t)).set ↔ _
  rw [View.set_slice_whole, Rect.mem_set_unit]
  exact Iff.rfl

/-- The row blocks tile the array: element `(b, r, c)` is in the block of point `(b, r / 512)`. -/
theorem row_blocks_cover (i : S4x8192x8192.Idx) :
    ∃ t : Fin cfg0.N, (cfg0.win 1).flush t = true ∧ i ∈ ((cfg0.win 1).blk t).view.set := by
  have h0 : (i 0).val < 4 := (i 0).isLt
  have h1 : (i 1).val < 8192 := (i 1).isLt
  have h2 : (i 2).val < 8192 := (i 2).isLt
  obtain ⟨t, ht⟩ := block_indices_onto ⟨(i 0).val, h0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_row_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 8192 ≤ (i 2).val ∧ (i 2).val < win0_1.index t (2 : Fin 3) * 8192 + 8192; omega

/-- So the second result ends holding the block-diagonal arrangement of the `sigma` argument. -/
theorem sigma_flat (c : Dev nD) : (dats m 0 c).arrAt 1 cfg0.N
    = Cert.BlockDiag.blockDiag (α := Elt F .f32) (FloatOps.ofBits .f32 0x00000000#32) (m ((c : Thread nD τ).loc main_arg1)) := by
  rw [← V_main_arg1 m c]
  exact (dats m 0 c).arrAt_eq_of_cover 1 _ (fun t _ => written_back m c t) row_blocks_cover

/-- The first result, as the launch finds and leaves it: `mu` with its channel axis moved last, flattened per batch. -/
theorem mu_flat (c : Dev nD) : (V m c main_v1 : S4x8192.Idx → Elt F .f32)
    = shapeCast _ (transpose S4x16x16x32 [0, 2, 3, 1] (m ((c : Thread nD τ).loc main_arg0))
        transposes_S4x32x16x16_S4x16x16x32_0_2_3_1) shapeCasts_S4x16x16x32_S4x8192 := by
  dsimp only [Gen.V, Gen.hostOps0]; after_results; rfl

/-- The kernel's run, read: both results as functions of the arguments, the arguments unchanged. -/
theorem run : θ_run defs (onTc (τ := τ) (main (F := F))) ⟨m, fun _ => 0, ρ⟩ fun r => ∀ c : Dev nD,
      r.2.mem ((c : Thread nD τ).loc main_v1) = shapeCast _ (transpose S4x16x16x32 [0, 2, 3, 1] (m ((c : Thread nD τ).loc main_arg0))
          transposes_S4x32x16x16_S4x16x16x32_0_2_3_1) shapeCasts_S4x16x16x32_S4x8192
      ∧ r.2.mem ((c : Thread nD τ).loc main_v2)
          = Cert.BlockDiag.blockDiag (α := Elt F .f32) (FloatOps.ofBits .f32 0x00000000#32) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 (by decide) (by decide))).trans (mu_flat m c),
        (post1 m r h c).trans (sigma_flat m c),
        kept_main_arg0 m r h c,
        kept_main_arg1 m r h c⟩)
    (run_main m ρ)

end Cert.KernelIdeal.Hand

end
-- ==== Proof.LibScatterSet.lean ====
/-
  A host scatter whose body returns the update (`x.at[…].set(v)`) read at ONE element of the operand.

  The scatter is a left fold over the updates in row-major order: update `j` replaces the element it lands on
  (`ScatterDims.resultIdx?`), or is dropped when it lands outside the operand. So an element no update lands on
  keeps the operand's value (`scatter_apply_of_miss`, for any body), and an element some update lands on reads
  that update — provided every update landing there carries the same value (`scatter_set_apply_of_hit`); when
  the landing map is injective that proviso is the single update itself (`scatter_set_apply_of_injective`).
  Nothing here evaluates the fold: the list of updates stays abstract.
-/
import Idealize.ShloMosaic.PureOps

namespace Idealize.ShloMosaic.ScatterSet

variable {α : Type} {s si u : Shape} {w : Nat}

/-- One step of the scatter's fold: update number `n` (row-major) replaces the element it lands on by the body's
    value there, and is dropped when it lands outside the operand. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over the updates in row-major order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i'` leaves `i'` alone. -/
theorem step_of_ne (d : ScatterDims s si u) (f : α → α → α) (idx : IVec si w) (upd : u.Idx → α)
    (r : s.Idx → α) (n : Fin u.numel) (i' : s.Idx)
    (h : d.resultIdx? (u.rowMajor.symm n) idx ≠ some i') : step d f idx upd r n i' = r i' := by
  unfold step
  cases hr : d.resultIdx? (u.rowMajor.symm n) idx with
  | none => rfl
  | some i =>
    have hne : i' ≠ i := fun e => h (by rw [hr, e])
    simp only [if_neg hne]

/-- A "set" step whose update lands on `i'` leaves the update there. -/
theorem step_set_of_eq (d : ScatterDims s si u) (idx : IVec si w) (upd : u.Idx → α)
    (r : s.Idx → α) (n : Fin u.numel) (i' : s.Idx)
    (h : d.resultIdx? (u.rowMajor.symm n) idx = some i') :
    step d (fun _ b => b) idx upd r n i' = upd (u.rowMajor.symm n) := by
  unfold step
  rw [h]
  exact if_pos rfl

/-- A fold over updates none of which lands on `i'` leaves `i'` alone. -/
theorem foldl_of_miss (d : ScatterDims s si u) (f : α → α → α) (idx : IVec si w) (upd : u.Idx → α)
    (i' : s.Idx) : ∀ (l : List (Fin u.numel)) (r : s.Idx → α),
      (∀ n ∈ l, d.resultIdx? (u.rowMajor.symm n) idx ≠ some i') →
      l.foldl (step d f idx upd) r i' = r i'
  | [], _, _ => rfl
  | n :: l, r, h => by
    rw [List.foldl_cons, foldl_of_miss d f idx upd i' l _ fun k hk => h k (List.mem_cons_of_mem _ hk)]
    exact step_of_ne d f idx upd r n i' (h n List.mem_cons_self)

/-- A "set" fold over updates one of which lands on `i'`, all that land there carrying one value, leaves that value. -/
theorem foldl_set_of_hit (d : ScatterDims s si u) (idx : IVec si w) (upd : u.Idx → α) (i' : s.Idx) (v : α) :
    ∀ (l : List (Fin u.numel)) (r : s.Idx → α),
      (∃ n ∈ l, d.resultIdx? (u.rowMajor.symm n) idx = some i') →
      (∀ n ∈ l, d.resultIdx? (u.rowMajor.symm n) idx = some i' → upd (u.rowMajor.symm n) = v) →
      l.foldl (step d (fun _ b => b) idx upd) r i' = v
  | [], _, h, _ => by obtain ⟨_, hn, _⟩ := h; exact absurd hn List.not_mem_nil
  | n :: l, r, h, hv => by
    rw [List.foldl_cons]
    by_cases hl : ∃ k ∈ l, d.resultIdx? (u.rowMajor.symm k) idx = some i'
    · exact foldl_set_of_hit d idx upd i' v l _ hl fun k hk => hv k (List.mem_cons_of_mem _ hk)
    · have hmiss : ∀ k ∈ l, d.resultIdx? (u.rowMajor.symm k) idx ≠ some i' := fun k hk e => hl ⟨k, hk, e⟩
      rw [foldl_of_miss d _ idx upd i' l _ hmiss]
      obtain ⟨k, hk, e⟩ := h
      rcases List.mem_cons.mp hk with rfl | hk'
      · rw [step_set_of_eq d idx upd r k i' e]
        exact hv k List.mem_cons_self e
      · exact absurd e (hmiss k hk')

/-- An element NO update lands on keeps the operand's value, whatever the body. -/
theorem scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_foldl]
  exact foldl_of_miss d f idx upd i' _ x fun n _ => h _

/-- An element update `j` lands on reads, after a "set" scatter, that update — when every update landing there
    carries the same value. -/
theorem scatter_set_apply_of_hit (d : ScatterDims s si u) (x : s.Idx → α) (idx : IVec si w)
    (upd : u.Idx → α) (i' : s.Idx) (j : u.Idx) (hj : d.resultIdx? j idx = some i')
    (hv : ∀ j' : u.Idx, d.resultIdx? j' idx = some i' → upd j' = upd j) :
    Host.scatter d (fun _ b => b) x idx upd i' = upd j := by
  rw [scatter_eq_foldl]
  refine foldl_set_of_hit d idx upd i' (upd j) _ x ⟨u.rowMajor j, List.mem_finRange _, ?_⟩ fun n _ hn => hv _ hn
  rw [Equiv.symm_apply_apply]; exact hj

/-- The same when the updates land at pairwise distinct elements: a landing map `land` that is injective. -/
theorem scatter_set_apply_of_injective (d : ScatterDims s si u) (x : s.Idx → α) (idx : IVec si w)
    (upd : u.Idx → α) (land : u.Idx → s.Idx) (hland : ∀ j, d.resultIdx? j idx = some (land j))
    (hinj : Function.Injective land) (j : u.Idx) :
    Host.scatter d (fun _ b => b) x idx upd (land j) = upd j :=
  scatter_set_apply_of_hit d x idx upd (land j) j (hland j) fun j' hj' => by
    rw [hland j'] at hj'
    rw [hinj (Option.some.inj hj')]

end Idealize.ShloMosaic.ScatterSet
-- ==== Proof.RefValue.lean ====
/-
  The reference's second result is the block-diagonal arrangement of its covariance argument.

  The reference scatters `sigma` transposed to [32, 4, 256, 256] into a zero array of shape [4, 32, 256, 32, 256]: update
  `(ch, b, p, q)` takes its two scattered coordinates from row `ch` of an index table whose two columns both hold `ch`
  (an `iota` normalised by "add 32 when negative", which changes nothing on 0 … 31), so it lands at `(b, ch, p, ch, q)`.
  The landing map is injective, so each element on the diagonal `(b, ch, p, ch, q)` reads `sigma[b, ch, p, q]` and every
  element with two different channel coordinates keeps the zero. The final reshape to [4, 8192, 8192] reads element
  `(b, r, c)` at `(b, r / 256, r % 256, c / 256, c % 256)`.
-/
import proofs.«110686_j26499948216838_2_alg».proof.Proof.Gen.ReferenceIdeal.Read
import proofs.«110686_j26499948216838_2_alg».proof.Proof.LibScatterSet
import proofs.«110686_j26499948216838_2_alg».proof.Proof.BlockDiag
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

local notation "dsc" => scatter_S4x32x256x32x256_S32x2_S32x4x256x256_123_13_13_1

/-! ## The scatter's dimension numbers, axis by axis -/

/-- Update `j` reads component 0 of its start index at row `j 0` (its channel), column 0 of the index table; -/
theorem startRow0 (j : S32x4x256x256.Idx) (h) :
    ScatterDims.siIdx dsc j ⟨0, h⟩ = ix2 (⟨(j 0).val, (j 0).isLt⟩ : Fin 32) (0 : Fin 2) := by
  funext b; match b with | ⟨0, _⟩ => rfl | ⟨1, _⟩ => rfl
/-- and component 1 at the same row, column 1. -/
theorem startRow1 (j : S32x4x256x256.Idx) (h) :
    ScatterDims.siIdx dsc j ⟨1, h⟩ = ix2 (⟨(j 0).val, (j 0).isLt⟩ : Fin 32) (1 : Fin 2) := by
  funext b; match b with | ⟨0, _⟩ => rfl | ⟨1, _⟩ => rfl

/-- The window starts, on operand axis 1, at the table's entry `(j 0, 0)` read signed; -/
theorem start_axis1 (j : S32x4x256x256.Idx) (idx : IVec S32x2 32) :
    ScatterDims.start dsc j idx 1 = (idx (ix2 (⟨(j 0).val, (j 0).isLt⟩ : Fin 32) (0 : Fin 2))).toInt :=
  congrArg (fun k => (idx k).toInt) (startRow0 j (by decide))
/-- on operand axis 3, at the entry `(j 0, 1)`. (On axes 0, 2 and 4 it starts at 0, and the window coordinates there
    are `j 1`, `j 2`, `j 3`: both by evaluation of the dimension numbers.) -/
theorem start_axis3 (j : S32x4x256x256.Idx) (idx : IVec S32x2 32) :
    ScatterDims.start dsc j idx 3 = (idx (ix2 (⟨(j 0).val, (j 0).isLt⟩ : Fin 32) (1 : Fin 2))).toInt :=
  congrArg (fun k => (idx k).toInt) (startRow1 j (by decide))

/-! ## The index table: both columns hold the row number -/

/-- "Add 32 when negative" leaves each of 0 … 31 alone (decided over the 32 words); -/
theorem wrap_word : ∀ k : Fin 32, Scalar.select (IntOp.cmpi .slt (BitVec.ofNat 32 k.val) 0#32)
    (IntOp.addi (BitVec.ofNat 32 k.val) 32#32) (BitVec.ofNat 32 k.val) = BitVec.ofNat 32 k.val := by decide
/-- and each of those words, read signed, is the number. -/
theorem word_toInt : ∀ k : Fin 32, (BitVec.ofNat 32 k.val).toInt = (k.val : Int) := by decide

/-- The normalised `arange(32)` that fills column 0 is `arange(32)`; -/
theorem wrapped0 (i : S32.Idx) : val_main_v9 (F := F) i = BitVec.ofNat 32 (i 0).val := by
  rw [val_main_v9_apply, val_main_v6_apply, val_main_v8_apply, val_main_v2_apply, val_main_v5_apply, val_main_c_apply,
    val_main_v7_apply, val_main_c_0_apply]
  exact wrap_word ⟨(i 0).val, (i 0).isLt⟩
/-- so is the one that fills column 1. -/
theorem wrapped1 (i : S32.Idx) : val_main_v14 (F := F) i = BitVec.ofNat 32 (i 0).val := by
  rw [val_main_v14_apply, val_main_v11_apply, val_main_v13_apply, val_main_v2_apply, val_main_v10_apply, val_main_c_1_apply,
    val_main_v12_apply, val_main_c_2_apply]
  exact wrap_word ⟨(i 0).val, (i 0).isLt⟩

/-- Entry `(k, 0)` of the index table is `k`: the left piece of the concatenation. -/
theorem table_col0 (k : Fin 32) : val_main_v17 (F := F) (ix2 k (0 : Fin 2)) = BitVec.ofNat 32 k.val := by
  unfold val_main_v17
  rw [concatenate_pair_apply_left (t := S32x2) (s₁ := S32x1) (s₂ := S32x1) (1 : Fin 2) _ _ concatenates_S32x1_S32x1_S32x2_d1
    (ix2 k (0 : Fin 2)) rfl (ix2 k (0 : Fin 1)) (fun b => match b with | ⟨0, _⟩ => rfl | ⟨1, _⟩ => rfl)]
  rw [val_main_v15_apply, wrapped0]
/-- Entry `(k, 1)` is `k` too: the right piece. -/
theorem table_col1 (k : Fin 32) : val_main_v17 (F := F) (ix2 k (1 : Fin 2)) = BitVec.ofNat 32 k.val := by
  unfold val_main_v17
  rw [concatenate_pair_apply_right (t := S32x2) (s₁ := S32x1) (s₂ := S32x1) (1 : Fin 2) _ _ concatenates_S32x1_S32x1_S32x2_d1
    (ix2 k (1 : Fin 2)) rfl rfl (ix2 k (0 : Fin 1))
    (fun b => match b with | ⟨0, _⟩ => fun _ => rfl | ⟨1, _⟩ => fun h => absurd rfl h) rfl]
  rw [val_main_v16_apply, wrapped1]

/-! ## Where each update lands -/

/-- Update `(ch, b, p, q)` lands at `(b, ch, p, ch, q)`. -/
def land (j : S32x4x256x256.Idx) : S4x32x256x32x256.Idx :=
  ix5 (⟨(j 1).val, (j 1).isLt⟩ : Fin 4) (⟨(j 0).val, (j 0).isLt⟩ : Fin 32) (⟨(j 2).val, (j 2).isLt⟩ : Fin 256)
    (⟨(j 0).val, (j 0).isLt⟩ : Fin 32) (⟨(j 3).val, (j 3).isLt⟩ : Fin 256)

/-- On every operand axis, window start plus window coordinate is the coordinate of `land j`. -/
theorem start_add_window (j : S32x4x256x256.Idx) (a : Fin 5) :
    ScatterDims.start dsc j (val_main_v17 (F := F)) a + ScatterDims.window dsc j a = ((land j a).val : Int) := by
  match a with
  | ⟨0, _⟩ => show (0 : Int) + (((j 1).val : Nat) : Int) = (((j 1).val : Nat) : Int); exact Int.zero_add _
  | ⟨1, _⟩ =>
    show ScatterDims.start dsc j (val_main_v17 (F := F)) 1 + ((0 : Nat) : Int) = (((j 0).val : Nat) : Int)
    rw [start_axis1, table_col0, word_toInt]; simp
  | ⟨2, _⟩ => show (0 : Int) + (((j 2).val : Nat) : Int) = (((j 2).val : Nat) : Int); exact Int.zero_add _
  | ⟨3, _⟩ =>
    show ScatterDims.start dsc j (val_main_v17 (F := F)) 3 + ((0 : Nat) : Int) = (((j 0).val : Nat) : Int)
    rw [start_axis3, table_col1, word_toInt]; simp
  | ⟨4, _⟩ => show (0 : Int) + (((j 3).val : Nat) : Int) = (((j 3).val : Nat) : Int); exact Int.zero_add _

/-- Every update lands inside the operand, at `land j`. -/
theorem lands (j : S32x4x256x256.Idx) :
    ScatterDims.resultIdx? dsc j (val_main_v17 (F := F)) = some (land j) := by
  unfold ScatterDims.resultIdx?
  rw [dif_pos (fun a => by
    rw [start_add_window j a]
    exact ⟨Int.natCast_nonneg _, by exact_mod_cast (land j a).isLt⟩)]
  congr 1
  funext a
  apply Fin.ext
  show (ScatterDims.start dsc j (val_main_v17 (F := F)) a + ScatterDims.window dsc j a).toNat = (land j a).val
  rw [start_add_window j a]
  exact Int.toNat_natCast _

/-- Distinct updates land at distinct elements: the four coordinates of `j` are all among those of `land j`. -/
theorem land_injective : Function.Injective land := by
  intro j j' h
  funext a
  apply Fin.ext
  match a with
  | ⟨0, _⟩ => exact congrArg (fun k : S4x32x256x32x256.Idx => (k 1).val) h
  | ⟨1, _⟩ => exact congrArg (fun k : S4x32x256x32x256.Idx => (k 0).val) h
  | ⟨2, _⟩ => exact congrArg (fun k : S4x32x256x32x256.Idx => (k 2).val) h
  | ⟨3, _⟩ => exact congrArg (fun k : S4x32x256x32x256.Idx => (k 4).val) h

/-! ## The result -/

/-- The reference's flattened covariance is the block-diagonal arrangement of its argument, over the zero its
    scatter starts from. -/
theorem sigma_flat_eq (x1 : (⟨S4x32x256x256, .f32⟩ : BufTy).Contents (Elt F)) :
    val_main_v19 (F := F) x1
      = Cert.BlockDiag.blockDiag (α := Elt F .f32) (FloatOps.ofBits .f32 0x00000000#32) x1 := by
  funext i
  rw [val_main_v19_apply]
  unfold val_main_v18 Cert.BlockDiag.blockDiag
  have h0 : (i 0).val < 4 := (i 0).isLt
  have h1 : (i 1).val < 8192 := (i 1).isLt
  have h2 : (i 2).val < 8192 := (i 2).isLt
  -- the two channel coordinates of the reshaped index: the block row and the block column
  have k1 : (((i 0).val * 8192 + (i 1).val) * 8192 + (i 2).val) / 2097152 % 32 = (i 1).val / 256 := by
    have e8 : (((i 0).val * 8192 + (i 1).val) * 8192 + (i 2).val) / 8192 = (i 0).val * 8192 + (i 1).val := by omega
    rw [show (2097152 : Nat) = 8192 * 256 from rfl, ← Nat.div_div_eq_div_mul, e8]
    omega
  have k3 : (((i 0).val * 8192 + (i 1).val) * 8192 + (i 2).val) / 256 % 32 = (i 2).val / 256 := by omega
  by_cases hd : (i 1).val / 256 = (i 2).val / 256
  · rw [if_pos hd]
    -- the one update that lands on this diagonal element
    have hl : idx_main_v19 i = land (ix4 (⟨(i 1).val / 256, by omega⟩ : Fin 32) (⟨(i 0).val, h0⟩ : Fin 4)
        (⟨(i 1).val % 256, Nat.mod_lt _ (by decide)⟩ : Fin 256) (⟨(i 2).val % 256, Nat.mod_lt _ (by decide)⟩ : Fin 256)) := by
      funext a; apply Fin.ext
      match a with
      | ⟨0, _⟩ => show (((i 0).val * 8192 + (i 1).val) * 8192 + (i 2).val) / 67108864 = (i 0).val; omega
      | ⟨1, _⟩ => show (((i 0).val * 8192 + (i 1).val) * 8192 + (i 2).val) / 2097152 % 32 = (i 1).val / 256; exact k1
      | ⟨2, _⟩ => show (((i 0).val * 8192 + (i 1).val) * 8192 + (i 2).val) / 8192 % 256 = (i 1).val % 256; omega
      | ⟨3, _⟩ => show (((i 0).val * 8192 + (i 1).val) * 8192 + (i 2).val) / 256 % 32 = (i 1).val / 256; rw [k3, hd]
      | ⟨4, _⟩ => show (((i 0).val * 8192 + (i 1).val) * 8192 + (i 2).val) % 256 = (i 2).val % 256; omega
    rw [hl, ScatterSet.scatter_set_apply_of_injective dsc _ _ _ land lands land_injective, val_main_v4_apply]
    congr 1
    funext a
    match a with
    | ⟨0, _⟩ => rfl
    | ⟨1, _⟩ => rfl
    | ⟨2, _⟩ => rfl
    | ⟨3, _⟩ => rfl
  · rw [if_neg hd, ScatterSet.scatter_apply_of_miss dsc _ _ _ _ _ (fun j hj => ?_), val_main_v3_apply, val_main_cst_apply]
    -- an update landing here would put one channel on both channel axes
    rw [lands] at hj
    have e := Option.some.inj hj
    have e1 : (j 0).val = (((i 0).val * 8192 + (i 1).val) * 8192 + (i 2).val) / 2097152 % 32 :=
      congrArg (fun k : S4x32x256x32x256.Idx => (k 1).val) e
    have e3 : (j 0).val = (((i 0).val * 8192 + (i 1).val) * 8192 + (i 2).val) / 256 % 32 :=
      congrArg (fun k : S4x32x256x32x256.Idx => (k 3).val) e
    exact hd (by rw [← k1, ← k3, ← e1, ← e3])

end Cert.ReferenceIdeal.RefValue

end
-- ==== Proof.lean ====
/-
  The kernel builds, per batch element, the 8192 × 8192 block-diagonal matrix of 32 covariance blocks of 256 × 256, one
  512-row block per grid point (zero fill, then the two channels' tiles); the reference scatters the same blocks into a
  zero array along a doubled channel axis and reshapes. Both are the ONE function `Cert.BlockDiag.blockDiag` of the
  `sigma` argument — entry `(b, r, c)` is `sigma[b, r / 256, r % 256, c % 256]` when `r / 256 = c / 256` and zero
  otherwise — (Proof/KernelValue.lean for the kernel, Proof/RefValue.lean for the reference), and the first result is the
  same transpose-and-flatten of `mu` in both programs. No entry is computed with: the equality is index arithmetic, and
  the precondition is never opened.
-/
import proofs.«110686_j26499948216838_2_alg».proof.Defs
import proofs.«110686_j26499948216838_2_alg».proof.Proof.Gen.Kernel
import proofs.«110686_j26499948216838_2_alg».proof.Proof.Gen.Kernel.Skeleton
import proofs.«110686_j26499948216838_2_alg».proof.Proof.Gen.Kernel.Launch
import proofs.«110686_j26499948216838_2_alg».proof.Proof.Gen.Kernel.Points
import proofs.«110686_j26499948216838_2_alg».proof.Proof.Gen.Kernel.Frame
import proofs.«110686_j26499948216838_2_alg».proof.Proof.Gen.KernelIdeal
import proofs.«110686_j26499948216838_2_alg».proof.Proof.Gen.KernelIdeal.Skeleton
import proofs.«110686_j26499948216838_2_alg».proof.Proof.Gen.KernelIdeal.Launch
import proofs.«110686_j26499948216838_2_alg».proof.Proof.Gen.KernelIdeal.Points
import proofs.«110686_j26499948216838_2_alg».proof.Proof.Gen.KernelIdeal.Frame
import proofs.«110686_j26499948216838_2_alg».proof.Proof.Gen.KernelIdeal.Value
import proofs.«110686_j26499948216838_2_alg».proof.Proof.Gen.ReferenceIdeal
import proofs.«110686_j26499948216838_2_alg».proof.Proof.Gen.ReferenceIdeal.Run
import proofs.«110686_j26499948216838_2_alg».proof.Proof.Gen.ReferenceIdeal.Read
import proofs.«110686_j26499948216838_2_alg».proof.Proof.Gen.Pre_finite_inputs
import proofs.«110686_j26499948216838_2_alg».proof.Proof.KernelValue
import proofs.«110686_j26499948216838_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference is host operations only: its run with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- Both programs, from memories that agree on `mu` and `sigma`, end with `mu` transposed and flattened and with the
    block-diagonal arrangement of `sigma`. -/
theorem algebraic : Cert.algebraic_KernelIdeal_ReferenceIdeal := by
  intro m ρ m' ρ' _ hagree
  refine ⟨_, _, Cert.KernelIdeal.Hand.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1]
  · rw [(hagree c).2, Cert.ReferenceIdeal.Read.val_main_v19_eq, Cert.ReferenceIdeal.RefValue.sigma_flat_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
